-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S8192x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x24576 : Shape := ⟨2, ![8192, 24576]⟩
abbrev S128x16 : Shape := ⟨2, ![128, 16]⟩
abbrev S16 : Shape := ⟨1, ![16]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x24576 : S_.BroadcastsInDim S8192x24576 (![] : Fin 0 → Fin S8192x24576.rank)
  reducesTo_S8192x24576_S_d0_1 : S8192x24576.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S8192x64 .f32) (main_arg1 : FVec F S8192x24576 .f32) (main_arg2 : FVec F S8192x24576 .f32) (main_arg3 : FVec F S128x16 .f32) (main_arg4 : FVec F S16 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x24576 .f32 := Host.absf main_arg1
  let main_cst_0 : FVec F S_ .f32 := constant S_ .f32 0x7F800000#32
  let main_v5 : FVec F S8192x24576 .f32 := broadcastInDim S8192x24576 ![] bcast_S_S8192x24576 main_cst_0
  let main_v6 : IVec S8192x24576 1 := cmpf .olt main_v4 main_v5
  let main_c_1 : IVec S_ 1 := constantI S_ 1 1#1
  let main_v7 : IVec S_ 1 := (fun x v => Host.reduce IntOp.andi x v reducesTo_S8192x24576_S_d0_1 h_S_) main_v6 main_c_1
  let main_v8 : IVec S_ 1 := andi main_v3 main_v7
  let main_v9 : FVec F S8192x24576 .f32 := Host.absf main_arg2
  let main_cst_2 : FVec F S_ .f32 := constant S_ .f32 0x7F800000#32
  let main_v10 : FVec F S8192x24576 .f32 := broadcastInDim S8192x24576 ![] bcast_S_S8192x24576 main_cst_2
  let main_v11 : IVec S8192x24576 1 := cmpf .olt main_v9 main_v10
  let main_c_3 : IVec S_ 1 := constantI S_ 1 1#1
  let main_v12 : IVec S_ 1 := (fun x v => Host.reduce IntOp.andi x v reducesTo_S8192x24576_S_d0_1 h_S_) main_v11 main_c_3
  let main_v13 : IVec S_ 1 := andi main_v8 main_v12
  let main_v14 : FVec F S128x16 .f32 := Host.absf main_arg3
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg4 main_v13 main_v16
-- ==== Kernel.lean ====
abbrev S8192x64 : Shape := ⟨2, ![8192, 64]⟩
abbrev S8192x24576 : Shape := ⟨2, ![8192, 24576]⟩
abbrev S128x16 : Shape := ⟨2, ![128, 16]⟩
abbrev S16 : Shape := ⟨1, ![16]⟩
abbrev S1x16 : Shape := ⟨2, ![1, 16]⟩
abbrev S16x24576 : Shape := ⟨2, ![16, 24576]⟩
abbrev S8192x256 : Shape := ⟨2, ![8192, 256]⟩
abbrev S16x256 : Shape := ⟨2, ![16, 256]⟩
abbrev S256x64 : Shape := ⟨2, ![256, 64]⟩
abbrev S64x16 : Shape := ⟨2, ![64, 16]⟩
abbrev S256x16 : Shape := ⟨2, ![256, 16]⟩
abbrev S24576x16 : Shape := ⟨2, ![24576, 16]⟩
abbrev S1x16x24576 : Shape := ⟨3, ![1, 16, 24576]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x64, .f32⟩
  | .hbm, ⟨1, _⟩ => ⟨S8192x24576, .f32⟩
  | .hbm, ⟨2, _⟩ => ⟨S8192x24576, .f32⟩
  | .hbm, ⟨3, _⟩ => ⟨S128x16, .f32⟩
  | .hbm, ⟨4, _⟩ => ⟨S16, .f32⟩
  | .hbm, ⟨5, _⟩ => ⟨S1x16, .f32⟩
  | .hbm, ⟨6, _⟩ => ⟨S16x24576, .f32⟩
  | .hbm, ⟨7, _⟩ => ⟨S24576x16, .f32⟩
  | .local _ .vmem, ⟨0, _⟩ => ⟨S8192x64, .f32⟩
  | .local _ .vmem, ⟨1, _⟩ => ⟨S8192x256, .f32⟩
  | .local _ .vmem, ⟨2, _⟩ => ⟨S8192x256, .f32⟩
  | .local _ .vmem, ⟨3, _⟩ => ⟨S8192x256, .f32⟩
  | .local _ .vmem, ⟨4, _⟩ => ⟨S8192x256, .f32⟩
  | .local _ .vmem, ⟨5, _⟩ => ⟨S128x16, .f32⟩
  | .local _ .vmem, ⟨6, _⟩ => ⟨S1x16, .f32⟩
  | .local _ .vmem, ⟨7, _⟩ => ⟨S16x256, .f32⟩
  | .local _ .vmem, ⟨8, _⟩ => ⟨S16x256, .f32⟩
  | .local _ .vmem, ⟨9, _⟩ => ⟨S16x24576, .f32⟩
  | .local _ .vmem, ⟨10, _⟩ => ⟨S24576x16, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg1_0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem1_0 : DmaSem sig := 10

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x24576 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S24576x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  shapeCasts_S16_S1x16 : S16.ShapeCasts S1x16
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S8192x256_S8192x256_0_0 : ∀ a, (![0, 0] : Fin 2 → Nat) a + S8192x256.size a ≤ S8192x256.size a
  h_S8192x256 : 0 < S8192x256.numel
  inb_S128x16_S128x16_0_0 : ∀ a, (![0, 0] : Fin 2 → Nat) a + S128x16.size a ≤ S128x16.size a
  h_S128x16 : 0 < S128x16.numel
  slices_S128x16_o0_0_S64x16 : S128x16.Slices ![0, 0] S64x16
  slices_S128x16_o64_0_S64x16 : S128x16.Slices ![64, 0] S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  transposes_S256x16_p1_0_S16x256 : S256x16.Transposes [1, 0] S16x256
  inb_S16x256_S16x256_0_0 : ∀ a, (![0, 0] : Fin 2 → Nat) a + S16x256.size a ≤ S16x256.size a
  h_S16x256 : 0 < S16x256.numel
  inb_S16x24576_S16x24576_0_0 : ∀ a, (![0, 0] : Fin 2 → Nat) a + S16x24576.size a ≤ S16x24576.size a
  h_S16x24576 : 0 < S16x24576.numel
  shapeCasts_S16x24576_S16x24576 : S16x24576.ShapeCasts S16x24576
  shapeCasts_S16x24576_S1x16x24576 : S16x24576.ShapeCasts S1x16x24576
  reduces_S1x16x24576_S1 : S1x16x24576.Reduces [1, 2] S1
  shapeCasts_S1_S1x1x1 : S1.ShapeCasts S1x1x1
  inpos_S1x1x1_p0_0_0 : ∀ a, (![0, 0, 0] : Fin 3 → Nat) a < S1x1x1.size a
  transposes_S16x24576_p1_0_S24576x16 : S16x24576.Transposes [1, 0] S24576x16
  inb_S24576x16_S24576x16_0_0 : ∀ a, (![0, 0] : Fin 2 → Nat) a + S24576x16.size a ≤ S24576x16.size a
  h_S24576x16 : 0 < S24576x16.numel
  dot_S8192x256_S8192x64_S256x64_0_0_1_1_n_n_wf : DotDims.WF S8192x256 S8192x64 S256x64 [0] [0] [1] [1] [] []
  dot_S256x64_S64x16_S256x16_1_0_0_1_n_n_wf : DotDims.WF S256x64 S64x16 S256x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S8192x64.size a
  hwx0_0 : ∀ i : grid0.Coords, EltTy.bits .f32 = 32 ∨ (Rect.block (s := S8192x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x24576.size a
  hwx0_1 : ∀ i : grid0.Coords, EltTy.bits .f32 = 32 ∨ (Rect.block (s := S8192x24576) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x24576.size a
  hwx0_2 : ∀ i : grid0.Coords, EltTy.bits .f32 = 32 ∨ (Rect.block (s := S8192x24576) S8192x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S16x24576.size a
  hwx0_5 : ∀ i : grid0.Coords, EltTy.bits .f32 = 32 ∨ (Rect.block (s := S16x24576) S16x256.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x24576.size a ≤ S16x24576.size a
  hwx1_0 : ∀ i : grid1.Coords, EltTy.bits .f32 = 32 ∨ (Rect.block (s := S16x24576) S16x24576.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S24576x16.size a ≤ S24576x16.size a
  hwx1_1 : ∀ i : grid1.Coords, EltTy.bits .f32 = 32 ∨ (Rect.block (s := S24576x16) S24576x16.size (cc1_transform_1 i) (hinb1_1 i)).WholeWords (EltTy.packing .f32)

variable [Facts₀]

def dot_S8192x256_S8192x64_S256x64_0_0_1_1_n_n : DotDims S8192x256 S8192x64 S256x64 where
  lhsContracting := [0]
  rhsContracting := [0]
  lhsNonContracting := [1]
  rhsNonContracting := [1]
  lhsBatch := []
  rhsBatch := []
  wf := dot_S8192x256_S8192x64_S256x64_0_0_1_1_n_n_wf
def dot_S256x64_S64x16_S256x16_1_0_0_1_n_n : DotDims S256x64 S64x16 S256x16 where
  lhsContracting := [1]
  rhsContracting := [0]
  lhsNonContracting := [0]
  rhsNonContracting := [1]
  lhsBatch := []
  rhsBatch := []
  wf := dot_S256x64_S64x16_S256x16_1_0_0_1_n_n_wf

abbrev win0_0 : Pipeline.Window sig grid0 :=
  Pipeline.Window.ofSpec (Memref.whole main_arg0) S8192x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8192x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S16x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S16x24576.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S24576x16.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8192x64 : Shape := ⟨2, ![8192, 64]⟩
abbrev S8192x24576 : Shape := ⟨2, ![8192, 24576]⟩
abbrev S128x16 : Shape := ⟨2, ![128, 16]⟩
abbrev S16 : Shape := ⟨1, ![16]⟩
abbrev S24576x8192 : Shape := ⟨2, ![24576, 8192]⟩
abbrev S24576x64 : Shape := ⟨2, ![24576, 64]⟩
abbrev S24576x128 : Shape := ⟨2, ![24576, 128]⟩
abbrev S24576x16 : Shape := ⟨2, ![24576, 16]⟩
abbrev S1x16 : Shape := ⟨2, ![1, 16]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x24576, .f32⟩
  | .hbm, ⟨2, _⟩ => ⟨S8192x24576, .f32⟩
  | .hbm, ⟨3, _⟩ => ⟨S128x16, .f32⟩
  | .hbm, ⟨4, _⟩ => ⟨S16, .f32⟩
  | .hbm, ⟨5, _⟩ => ⟨S24576x8192, .f32⟩
  | .hbm, ⟨6, _⟩ => ⟨S24576x64, .f32⟩
  | .hbm, ⟨7, _⟩ => ⟨S24576x8192, .f32⟩
  | .hbm, ⟨8, _⟩ => ⟨S24576x64, .f32⟩
  | .hbm, ⟨9, _⟩ => ⟨S24576x128, .f32⟩
  | .hbm, ⟨10, _⟩ => ⟨S24576x16, .f32⟩
  | .hbm, ⟨11, _⟩ => ⟨S1x16, .f32⟩
  | .hbm, ⟨12, _⟩ => ⟨S24576x16, .f32⟩
  | .hbm, ⟨13, _⟩ => ⟨S24576x16, .f32⟩
  | .hbm, ⟨14, _⟩ => ⟨S_, .f32⟩
  | .hbm, ⟨15, _⟩ => ⟨S24576x16, .f32⟩
  | .hbm, ⟨16, _⟩ => ⟨S24576x16, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S24576x16, .f32⟩
  | .hbm, ⟨22, _⟩ => ⟨S24576x16, .f32⟩
  | .hbm, ⟨23, _⟩ => ⟨S_, .f32⟩
  | .hbm, ⟨24, _⟩ => ⟨S24576x16, .f32⟩
  | .hbm, ⟨25, _⟩ => ⟨S24576x16, .f32⟩
  | .hbm, ⟨26, _⟩ => ⟨S_, .f32⟩
  | .hbm, ⟨27, _⟩ => ⟨S24576x16, .f32⟩
  | .hbm, ⟨28, _⟩ => ⟨S24576x16, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  transposes_S8192x24576_S24576x8192_1_0 : S8192x24576.Transposes [1, 0] S24576x8192
  concatenates_S24576x64_S24576x64_S24576x128_d1 : Shape.Concatenates [S24576x64, S24576x64] S24576x128 1
  bcast_S16_S1x16_1 : S16.BroadcastsInDim S1x16 (![1] : Fin 1 → Fin S1x16.rank)
  bcast_S1x16_S24576x16_0_1 : S1x16.BroadcastsInDim S24576x16 (![0, 1] : Fin 2 → Fin S24576x16.rank)
  bcast_S_S24576x16 : S_.BroadcastsInDim S24576x16 (![] : Fin 0 → Fin S24576x16.rank)
  reducesTo_S24576x16_S_d0_1 : S24576x16.ReducesTo [0, 1] S_
  h_S_ : 0 < S_.numel
  dot_S24576x8192_S8192x64_S24576x64_1_0_0_1_n_n_wf : DotDims.WF S24576x8192 S8192x64 S24576x64 [1] [0] [0] [1] [] []
  dot_S24576x128_S128x16_S24576x16_1_0_0_1_n_n_wf : DotDims.WF S24576x128 S128x16 S24576x16 [1] [0] [0] [1] [] []

variable [Facts₀]

def dot_S24576x8192_S8192x64_S24576x64_1_0_0_1_n_n : DotDims S24576x8192 S8192x64 S24576x64 where
  lhsContracting := [1]
  rhsContracting := [0]
  lhsNonContracting := [0]
  rhsNonContracting := [1]
  lhsBatch := []
  rhsBatch := []
  wf := dot_S24576x8192_S8192x64_S24576x64_1_0_0_1_n_n_wf
def dot_S24576x128_S128x16_S24576x16_1_0_0_1_n_n : DotDims S24576x128 S128x16 S24576x16 where
  lhsContracting := [1]
  rhsContracting := [0]
  lhsNonContracting := [0]
  rhsNonContracting := [1]
  lhsBatch := []
  rhsBatch := []
  wf := dot_S24576x128_S128x16_S24576x16_1_0_0_1_n_n_wf

class Facts : Prop extends Facts₀ where

variable [Facts]
-- ==== Proof.Finite.lean ====
/-
  Every entry of the node-feature array is a real number.

  The precondition is a conjunction of five tests, one per input, each "the absolute value of every entry is below +∞",
  taken as an `and` over all entries.  Read at the extended reals, the first test says that no entry of `X` is +∞ or
  −∞: an absolute value `max x (−x)` below +∞ rules out both.
-/
import proofs.«113099_j4964982194217_2_alg».proof.Defs
import Idealize.ShloMosaic.Lib.ReduceAll
import Idealize.ShloMosaic.Lib.Affine
import Idealize.ShloMosaic.Lib.ValueIdx

noncomputable section

namespace Cert.FiniteX

open Idealize.ShloMosaic Cert.Pre_finite_inputs

instance : Subsingleton Cert.Pre_finite_inputs.S_.Idx := ⟨fun a b => funext fun d => d.elim0⟩

/-- An extended real whose absolute value is below +∞ is neither infinity. -/
theorem real_of_abs_lt (x : EReal)
    (h : FloatOps.cmpf (F := Ideal) (φ := .f32) .olt (FloatOps.hostAbsf x) (FloatOps.ofBits .f32 0x7F800000#32) = 1#1) :
    x ≠ ⊤ ∧ x ≠ ⊥ := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  have hlt : max x (-x) < ⊤ := by
    by_contra hn
    simp [hn] at h
  rw [max_lt_iff] at hlt
  refine ⟨ne_of_lt hlt.1, fun hb => ?_⟩
  rw [hb] at hlt
  simp at hlt

/-- The precondition's first conjunct, at an entry of `X`. -/
theorem X_real [Cert.Pre_finite_inputs.Facts] (x0 : FVec Ideal S8192x64 .f32) (x1 x2 : FVec Ideal S8192x24576 .f32)
    (x3 : FVec Ideal S128x16 .f32) (x4 : FVec Ideal S16 .f32)
    (h : Cert.Pre_finite_inputs.fn (F := Ideal) x0 x1 x2 x3 x4 = fun _ => 1#1) (i : S8192x64.Idx) :
    x0 i ≠ ⊤ ∧ x0 i ≠ ⊥ := by
  have h0 := congrFun h ValueIdx.ix0
  dsimp only [fn, fn_part1] at h0
  change IntOp.andi _ _ = 1#1 at h0
  obtain ⟨h18, -⟩ := IntOp.andi_eq_one.1 h0
  change IntOp.andi _ _ = 1#1 at h18
  obtain ⟨h13, -⟩ := IntOp.andi_eq_one.1 h18
  change IntOp.andi _ _ = 1#1 at h13
  obtain ⟨h8, -⟩ := IntOp.andi_eq_one.1 h13
  change IntOp.andi _ _ = 1#1 at h8
  obtain ⟨h3, -⟩ := IntOp.andi_eq_one.1 h8
  exact real_of_abs_lt (x0 i) (Host.reduce_andi_all _ _ _ _ _ h3 i)

end Cert.FiniteX

end
-- ==== Proof.KernelRun.lean ====
/-
  The idealized kernel's run with its result named.

  The program is a reshape of the bias on the host followed by two kernel regions.  Its generated frame walks the buffer
  contents through the three segments (`W0` at launch, `W1` after the reshape, `W2` after the first region, `W3` after
  the second) and, at the end, reads every unscoped buffer of the final state at `W3`; it keeps the five argument arrays
  of that reading.  Here the same launch is made once more and the reading keeps one buffer more: the result array
  `main_v2`, which therefore ends at `W3 … main_v2`, the second region's output array after its write-backs.
-/
import proofs.«113099_j4964982194217_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_W3 : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

/-- The result array after the run is the second region's output array after its write-backs, the region entered from
    the contents the first region leaves. -/
theorem W3_result (c : Dev nD) : W3 m ρ c (Proc.devRef .tc main_v2) = (dat1 (V2 m ρ) c).arrAt 1 cfg1.N :=
  W3_arr m ρ c 1

/-- The second region's input array, as it finds it, is the first region's output array after its write-backs, that
    region entered from the contents the host reshape leaves. -/
theorem V2_hidden (c : Dev nD) : V2 m ρ c main_v1 = (dat0 (V1 m ρ) c).arrAt 5 cfg0.N :=
  W2_arr m ρ c 5

end Cert.KernelIdeal.Result

end
-- ==== Proof.Spec.lean ====
/-
  The mathematics of the edge network, stated with no program in sight.

  Inputs: node features `X` (8192 × 64), two incidence matrices `Ri`, `Ro` (8192 × 24576, a column per edge), a weight
  matrix `W` (128 × 16) and a bias `b` (16).  For edge `e` the gathered features are the columns of `Roᵀ·X` and `Riᵀ·X`
  (`gath`), the hidden activation is `relu ([Roᵀ·X | Riᵀ·X] · W + b)` and the result rescales the hidden activations
  to `[0, π]` by their global minimum and maximum.

  Three arrangements of the hidden activation are compared here, all over the extended reals:
  * `hid`     — the common form: the product with `W` split into its top 64 and bottom 64 rows;
  * `hidCat`  — one product of the concatenated 128 features with `W` (how a plain matrix product spells it);
  * `hidSplit`— each gathered feature computed as `Rᵀ·X + Rᵀ·(X − X)` (a value split into a part and a remainder that
                 is exactly zero when format changes are the identity).
  `hidCat = hid` is a finite sum over `Fin (64 + 64)` split in two: it holds for all extended reals.  `hidSplit = hid`
  needs `X − X = 0`, which holds for a real `X` and fails at an infinity: it is the one place finiteness is used.
  The global minimum and maximum are an infimum and a supremum over all indices, so they do not see whether the hidden
  activations are laid out edge-major or transposed (`iInf_swap`, `iSup_swap`).
-/
import Idealize.ShloMosaic.PureOps.Ideal
import Idealize.ShloMosaic.PureOps.Ideal.Laws
import Idealize.ShloMosaic.Lib.ValueIdx

noncomputable section

namespace Cert.EdgeSpec

open Idealize.ShloMosaic Idealize.ShloMosaic.ValueIdx

abbrev SX : Shape := ⟨2, ![8192, 64]⟩
abbrev SR : Shape := ⟨2, ![8192, 24576]⟩
abbrev SW : Shape := ⟨2, ![128, 16]⟩
abbrev SB : Shape := ⟨1, ![16]⟩
abbrev SH : Shape := ⟨2, ![24576, 16]⟩
abbrev SHT : Shape := ⟨2, ![16, 24576]⟩

/-- Row `d` of the top half of `W`. -/
abbrev top (d : Fin 64) : Fin 128 := ⟨d.val, by have := d.isLt; omega⟩
/-- Row `d` of the bottom half of `W`. -/
abbrev bot (d : Fin 64) : Fin 128 := ⟨64 + d.val, by have := d.isLt; omega⟩

/-- Entry `(e, d)` of `Rᵀ·X`: the features gathered along edge `e`. -/
def gath (X : SX.Idx → EReal) (R : SR.Idx → EReal) (e : Fin 24576) (d : Fin 64) : EReal :=
  ∑ n : Fin 8192, R (ix2 n e) * X (ix2 n d)

/-- The same entry with `X` split into itself and the remainder `X − X`. -/
def gathSplit (X : SX.Idx → EReal) (R : SR.Idx → EReal) (e : Fin 24576) (d : Fin 64) : EReal :=
  (∑ n : Fin 8192, R (ix2 n e) * X (ix2 n d)) + ∑ n : Fin 8192, R (ix2 n e) * (X (ix2 n d) - X (ix2 n d))

/-- The hidden activation of edge `e`, unit `q`. -/
def hid (X : SX.Idx → EReal) (Ri Ro : SR.Idx → EReal) (W : SW.Idx → EReal) (b : SB.Idx → EReal) (e : Fin 24576) (q : Fin 16) : EReal :=
  max (((∑ d : Fin 64, gath X Ro e d * W (ix2 (top d) q)) + ∑ d : Fin 64, gath X Ri e d * W (ix2 (bot d) q)) + b (ix1 q)) 0

/-- The hidden activation with the remainder terms kept. -/
def hidSplit (X : SX.Idx → EReal) (Ri Ro : SR.Idx → EReal) (W : SW.Idx → EReal) (b : SB.Idx → EReal) (e : Fin 24576) (q : Fin 16) : EReal :=
  max (((∑ d : Fin 64, gathSplit X Ro e d * W (ix2 (top d) q)) + ∑ d : Fin 64, gathSplit X Ri e d * W (ix2 (bot d) q)) + b (ix1 q)) 0

/-- Feature `k` of the concatenation `[Roᵀ·X | Riᵀ·X]` at edge `e`. -/
def cat (X : SX.Idx → EReal) (Ri Ro : SR.Idx → EReal) (e : Fin 24576) (k : Fin 128) : EReal :=
  if h : k.val < 64 then gath X Ro e ⟨k.val, h⟩ else gath X Ri e ⟨k.val - 64, by have := k.isLt; omega⟩

/-- The hidden activation as one product of the concatenated features with `W`. -/
def hidCat (X : SX.Idx → EReal) (Ri Ro : SR.Idx → EReal) (W : SW.Idx → EReal) (b : SB.Idx → EReal) (e : Fin 24576) (q : Fin 16) : EReal :=
  max ((∑ k : Fin 128, cat X Ri Ro e k * W (ix2 k q)) + b (ix1 q)) 0

/-- The f32 word nearest π, as the extended real it denotes. -/
abbrev piWord : EReal := Ideal.ofBits .f32 0x40490FDB#32

/-- Min–max rescaling of an edge-major array to `[0, π]`. -/
def rescale (h : SH.Idx → EReal) : SH.Idx → EReal := fun i =>
  Ideal.div (h i - ⨅ k, h k) ((⨆ k, h k) - ⨅ k, h k) * piWord

/-- The result: the hidden activations of all edges, rescaled. -/
def out (X : SX.Idx → EReal) (Ri Ro : SR.Idx → EReal) (W : SW.Idx → EReal) (b : SB.Idx → EReal) : SH.Idx → EReal :=
  rescale (fun i => hid X Ri Ro W b (i 0) (i 1))

/-- A real minus itself is zero; so the remainder sums vanish. -/
theorem gathSplit_eq (X : SX.Idx → EReal) (R : SR.Idx → EReal) (hX : ∀ i, X i ≠ ⊤ ∧ X i ≠ ⊥) (e : Fin 24576) (d : Fin 64) :
    gathSplit X R e d = gath X R e d := by
  unfold gathSplit gath
  have h0 : ∀ n : Fin 8192, R (ix2 n e) * (X (ix2 n d) - X (ix2 n d)) = 0 := fun n => by
    rw [EReal.sub_self (hX _).1 (hX _).2, mul_zero]
  rw [Finset.sum_congr rfl (fun n _ => h0 n), Finset.sum_const_zero, add_zero]

theorem hidSplit_eq (X : SX.Idx → EReal) (Ri Ro : SR.Idx → EReal) (W : SW.Idx → EReal) (b : SB.Idx → EReal)
    (hX : ∀ i, X i ≠ ⊤ ∧ X i ≠ ⊥) (e : Fin 24576) (q : Fin 16) :
    hidSplit X Ri Ro W b e q = hid X Ri Ro W b e q := by
  unfold hidSplit hid
  simp only [gathSplit_eq X _ hX]

/-- A sum over the 128 concatenated features is the sum over the first 64 plus the sum over the last 64. -/
theorem sum_split (f : Fin 128 → EReal) : ∑ k : Fin 128, f k = (∑ d : Fin 64, f (top d)) + ∑ d : Fin 64, f (bot d) := by
  have h := Fin.sum_univ_add (M := EReal) (a := 64) (b := 64) (fun k : Fin (64 + 64) => f k)
  exact h

theorem cat_top (X : SX.Idx → EReal) (Ri Ro : SR.Idx → EReal) (e : Fin 24576) (d : Fin 64) : cat X Ri Ro e (top d) = gath X Ro e d := by
  unfold cat; rw [dif_pos (show (top d).val < 64 from d.isLt)]

theorem cat_bot (X : SX.Idx → EReal) (Ri Ro : SR.Idx → EReal) (e : Fin 24576) (d : Fin 64) : cat X Ri Ro e (bot d) = gath X Ri e d := by
  unfold cat
  rw [dif_neg (show ¬ (bot d).val < 64 from by show ¬ 64 + d.val < 64; omega)]
  exact congrArg (gath X Ri e) (Fin.ext (by show 64 + d.val - 64 = d.val; omega))

theorem hidCat_eq (X : SX.Idx → EReal) (Ri Ro : SR.Idx → EReal) (W : SW.Idx → EReal) (b : SB.Idx → EReal) (e : Fin 24576) (q : Fin 16) :
    hidCat X Ri Ro W b e q = hid X Ri Ro W b e q := by
  unfold hidCat hid
  rw [sum_split]
  simp only [cat_top, cat_bot]

/-- Swapping the two coordinates is onto, from either layout. -/
theorem swap_surj : Function.Surjective (fun j : SHT.Idx => (ix2 (j 1) (j 0) : SH.Idx)) := fun i =>
  ⟨ix2 (i 1) (i 0), (eq_ix2 i).symm⟩

/-- The infimum over all entries does not see the layout. -/
theorem iInf_swap (h : SH.Idx → EReal) : ⨅ j : SHT.Idx, h (ix2 (j 1) (j 0)) = ⨅ i, h i :=
  swap_surj.iInf_comp h

theorem iSup_swap (h : SH.Idx → EReal) : ⨆ j : SHT.Idx, h (ix2 (j 1) (j 0)) = ⨆ i, h i :=
  swap_surj.iSup_comp h

/-- Rescaling the transposed array and transposing back is rescaling the array. -/
theorem rescale_swap (h : SH.Idx → EReal) (e : Fin 24576) (q : Fin 16) :
    Ideal.div (h (ix2 e q) - ⨅ j : SHT.Idx, h (ix2 (j 1) (j 0)))
        ((⨆ j : SHT.Idx, h (ix2 (j 1) (j 0))) - ⨅ j : SHT.Idx, h (ix2 (j 1) (j 0))) * piWord = rescale h (ix2 e q) := by
  unfold rescale
  rw [iInf_swap, iSup_swap]

/-- The word of +∞ and the word of −∞, as extended reals. -/
theorem top_word : Ideal.ofBits .f32 0x7F800000#32 = ⊤ := by simp [Ideal.ofBits, Ideal.ieee]
theorem bot_word : Ideal.ofBits .f32 0xFF800000#32 = ⊥ := by simp [Ideal.ofBits, Ideal.ieee]

/-- A fold of `min` from +∞ over every index is the infimum: it is below every entry, and anything below every entry
    is below it. -/
theorem fold_min_univ {ι : Type} [Fintype ι] (f : ι → EReal) :
    Finset.univ.fold (fun x y : EReal => min x y) ⊤ f = ⨅ i, f i := by
  apply le_antisymm
  · exact le_iInf fun i => (Finset.fold_min_le _).mpr (Or.inr ⟨i, Finset.mem_univ i, le_rfl⟩)
  · exact (Finset.le_fold_min _).mpr ⟨le_top, fun x _ => iInf_le f x⟩

/-- A fold of `max` from −∞ over every index is the supremum. -/
theorem fold_max_univ {ι : Type} [Fintype ι] (f : ι → EReal) :
    Finset.univ.fold (fun x y : EReal => max x y) ⊥ f = ⨆ i, f i := by
  apply le_antisymm
  · exact (Finset.fold_max_le _).mpr ⟨bot_le, fun x _ => le_iSup f x⟩
  · exact iSup_le fun i => (Finset.le_fold_max _).mpr (Or.inr ⟨i, Finset.mem_univ i, le_rfl⟩)

end Cert.EdgeSpec

end
-- ==== Proof.RescaleBody.lean ====
/-
  The rescale kernel's stored value at an index.

  The kernel loads the whole transposed activation array `h` (16 × 24576), takes its minimum and its maximum over all
  entries (each a reduction of the array recast to 1 × 16 × 24576 over its last two axes, from +∞ and from −∞), and stores
  the transpose of `(h − min) / (max − min) · π`.  A reduction over all entries is a fold of `min` (or `max`) over every
  index, that is the infimum (supremum) of the entries; a recast only renames the indices, so the infimum is that of
  `h` itself.  Entry `(e, q)` of the stored array is therefore the rescaled entry `(q, e)` of `h`.
-/
import proofs.«113099_j4964982194217_2_alg».proof.Proof.Gen.KernelIdeal.Skeleton
import proofs.«113099_j4964982194217_2_alg».proof.Proof.Spec
import Idealize.ShloMosaic.Lib.Pipeline.Value
import Idealize.ShloMosaic.Lib.ValueIdx
import Idealize.ShloMosaic.PureOps.Ideal.Laws

set_option maxRecDepth 65536

noncomputable section

namespace Cert.KernelIdeal.RescaleBody

open Idealize.ShloMosaic Idealize.ShloMosaic.ValueIdx Cert.KernelIdeal Cert.KernelIdeal.Gen Cert.EdgeSpec

instance : Subsingleton S1.Idx :=
  ⟨fun a b => funext fun d => match d with | ⟨0, _⟩ => Subsingleton.elim (α := Fin 1) _ _⟩

/-- The minimum over the last two axes of the recast array is the infimum of all entries. -/
theorem min_all (h : FVec Ideal S16x24576 .f32) (j : S1.Idx) :
    multiReduction (F := Ideal) .minimumf [1, 2] S1 (shapeCast S1x16x24576 h shapeCasts_S16x24576_S1x16x24576) 0x7F800000#32
      reduces_S1x16x24576_S1 (.inl rfl) rfl j = ⨅ i, h i := by
  refine (multiReduction_minimumf_eq_fold (F := Ideal) (shapeCast S1x16x24576 h shapeCasts_S16x24576_S1x16x24576) 0x7F800000#32
    reduces_S1x16x24576_S1 (.inl rfl) rfl j).trans ?_
  have hf : (Finset.univ.filter fun i : S1x16x24576.Idx => reduces_S1x16x24576_S1.drop i = j) = Finset.univ :=
    Finset.filter_true_of_mem (fun i _ => Subsingleton.elim _ _)
  rw [hf]
  show Finset.univ.fold (fun x y : EReal => min x y) (Ideal.ofBits .f32 0x7F800000#32) _ = _
  rw [top_word, fold_min_univ]
  exact (Shape.reshapeEquiv shapeCasts_S16x24576_S1x16x24576).iInf_comp (g := h)

/-- The maximum over the last two axes of the recast array is the supremum of all entries. -/
theorem max_all (h : FVec Ideal S16x24576 .f32) (j : S1.Idx) :
    multiReduction (F := Ideal) .maximumf [1, 2] S1 (shapeCast S1x16x24576 h shapeCasts_S16x24576_S1x16x24576) 0xFF800000#32
      reduces_S1x16x24576_S1 (.inl rfl) rfl j = ⨆ i, h i := by
  refine (multiReduction_maximumf_eq_fold (F := Ideal) (shapeCast S1x16x24576 h shapeCasts_S16x24576_S1x16x24576) 0xFF800000#32
    reduces_S1x16x24576_S1 (.inl rfl) rfl j).trans ?_
  have hf : (Finset.univ.filter fun i : S1x16x24576.Idx => reduces_S1x16x24576_S1.drop i = j) = Finset.univ :=
    Finset.filter_true_of_mem (fun i _ => Subsingleton.elim _ _)
  rw [hf]
  show Finset.univ.fold (fun x y : EReal => max x y) (Ideal.ofBits .f32 0xFF800000#32) _ = _
  rw [bot_word, fold_max_univ]
  exact (Shape.reshapeEquiv shapeCasts_S16x24576_S1x16x24576).iSup_comp (g := h)

/-- The one index of a one-element array that the scalar extraction reads. -/
abbrev j0 : S1.Idx := Shape.reshapeEquiv shapeCasts_S1_S1x1x1 (fun a => ⟨![0, 0, 0] a, inpos_S1x1x1_p0_0_0 a⟩)

/-- The stored value as a function of the (recast) input array `h'` and of the two reductions' one-element results
    `Mn`, `Mx`: the transpose of `(h' − Mn) / (Mx − Mn) · π`. -/
def payOf (h' : FVec Ideal S16x24576 .f32) (Mn Mx : FVec Ideal S1 .f32) : FVec Ideal S24576x16 .f32 :=
  transpose S24576x16 [1, 0]
    (mulf
      (divf
        (subf h' (broadcast S16x24576 (extractAt ![0, 0, 0] (shapeCast S1x1x1 Mn shapeCasts_S1_S1x1x1) inpos_S1x1x1_p0_0_0)))
        (broadcast S16x24576
          (Scalar.subf (extractAt ![0, 0, 0] (shapeCast S1x1x1 Mx shapeCasts_S1_S1x1x1) inpos_S1x1x1_p0_0_0)
            (extractAt ![0, 0, 0] (shapeCast S1x1x1 Mn shapeCasts_S1_S1x1x1) inpos_S1x1x1_p0_0_0))))
      (broadcast S16x24576 (Scalar.ofBits .f32 0x40490FDB#32)))
    transposes_S16x24576_p1_0_S24576x16

/-- Entry `(e, q)` of `payOf`: the rescaled entry `(q, e)` of `h'`. -/
theorem payOf_at (h' : FVec Ideal S16x24576 .f32) (Mn Mx : FVec Ideal S1 .f32) (e : Fin 24576) (q : Fin 16) :
    payOf h' Mn Mx (ix2 e q) = Ideal.div (h' (ix2 q e) - Mn j0) (Mx j0 - Mn j0) * piWord := by
  unfold payOf
  refine (transpose_apply [1, 0] _ transposes_S16x24576_p1_0_S24576x16 (ix2 e q) (ix2 q e)
    (fun b => match b with | ⟨0, _⟩ => rfl | ⟨1, _⟩ => rfl)).trans ?_
  rfl

/-- The kernel's stored value is `payOf` of the recast input and its two reductions (the same operations, named). -/
theorem pay_unfold (h : Vec Ideal S16x24576 .f32) :
    k1_pay1 (F := Ideal) h = payOf (shapeCast S16x24576 h shapeCasts_S16x24576_S16x24576)
      (multiReduction (F := Ideal) .minimumf [1, 2] S1
        (shapeCast S1x16x24576 (shapeCast S16x24576 h shapeCasts_S16x24576_S16x24576) shapeCasts_S16x24576_S1x16x24576)
        0x7F800000#32 reduces_S1x16x24576_S1 (.inl rfl) rfl)
      (multiReduction (F := Ideal) .maximumf [1, 2] S1
        (shapeCast S1x16x24576 (shapeCast S16x24576 h shapeCasts_S16x24576_S16x24576) shapeCasts_S16x24576_S1x16x24576)
        0xFF800000#32 reduces_S1x16x24576_S1 (.inl rfl) rfl) := rfl

/-- The rescaling formula respects equal arguments. -/
theorem scale_congr {x a b x' a' b' : EReal} (hx : x = x') (ha : a = a') (hb : b = b') :
    Ideal.div (x - a) (b - a) * piWord = Ideal.div (x' - a') (b' - a') * piWord := by
  subst hx ha hb; rfl

/-- Entry `(e, q)` of the stored array: the entry `(q, e)` of `h` rescaled by the infimum and supremum of `h`. -/
theorem pay_at (h : Vec Ideal S16x24576 .f32) (e : Fin 24576) (q : Fin 16) :
    k1_pay1 (F := Ideal) h (ix2 e q)
      = Ideal.div (h (ix2 q e) - ⨅ j, h j) ((⨆ j, h j) - ⨅ j, h j) * piWord := by
  have hv1 : shapeCast S16x24576 h shapeCasts_S16x24576_S16x24576 = h := shapeCast_self h shapeCasts_S16x24576_S16x24576
  have hmin := min_all (shapeCast S16x24576 h shapeCasts_S16x24576_S16x24576) j0
  have hmax := max_all (shapeCast S16x24576 h shapeCasts_S16x24576_S16x24576) j0
  have hinf : (⨅ i, shapeCast S16x24576 h shapeCasts_S16x24576_S16x24576 i) = ⨅ j, h j := by rw [hv1]
  have hsup : (⨆ i, shapeCast S16x24576 h shapeCasts_S16x24576_S16x24576 i) = ⨆ j, h j := by rw [hv1]
  exact (congrFun (pay_unfold h) (ix2 e q)).trans ((payOf_at _ _ _ e q).trans
    (scale_congr (congrFun hv1 (ix2 q e)) (hmin.trans hinf) (hmax.trans hsup)))

end Cert.KernelIdeal.RescaleBody

end
-- ==== Proof.RescaleArray.lean ====
/-
  The rescale region's output array after the run.

  The region has one grid point; its input window is the whole transposed activation array and its output window the
  whole result array (both index maps are constantly zero).  So the one point reads the array as the region finds it,
  the body stores the rescaled transpose (RescaleBody), the one write-back covers every index, and the output array ends
  holding, at `(e, q)`, the rescaled entry `(q, e)` of the input array.  Stated at any entry contents `V`.
-/
import proofs.«113099_j4964982194217_2_alg».proof.Proof.Gen.KernelIdeal.Frame
import proofs.«113099_j4964982194217_2_alg».proof.Proof.RescaleBody
import Idealize.ShloMosaic.Lib.Pipeline.Value

set_option maxRecDepth 16384

noncomputable section

namespace Cert.KernelIdeal.RescaleArray

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.EdgeSpec

variable (V : (c : Dev nD) → (b : Ref sig .tc) → Buf (Elt Ideal) ((c : Thread nD τ).loc b))

theorem hz : (![0, 0] : Fin 2 → Nat) = fun _ => 0 := funext fun a => by fin_cases a <;> rfl

/-- The result array as a function of the transposed activations `h`. -/
abbrev scaledT (h : S16x24576.Idx → EReal) : S24576x16.Idx → EReal := fun i =>
  Ideal.div (h (ix2 (i 1) (i 0)) - ⨅ j, h j) ((⨆ j, h j) - ⨅ j, h j) * piWord

/-- Both windows sit at block (0, 0) at the region's one point. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

/-- The input block at the point is the whole input array. -/
theorem in_blk (c : Dev nD) (t : Fin cfg1.N) : iblk1 V c 0 t = V c main_v1 := by
  obtain ⟨e0, e1, -, -⟩ := idx_facts t
  funext y
  show V c main_v1 (((cfg1.win 0).blk t).view.emb y) = V c main_v1 y
  refine congrArg (V c main_v1) (funext fun a => Fin.ext ?_)
  match a with
  | ⟨0, _⟩ => show win1_0.index t (0 : Fin 2) * 16 + 1 * (y 0).val = (y 0).val; omega
  | ⟨1, _⟩ => show win1_0.index t (1 : Fin 2) * 24576 + 1 * (y 1).val = (y 1).val; omega

/-- What the point writes back is the block of `scaledT` of the input array. -/
theorem flushed_eq (c : Dev nD) (t : Fin cfg1.N) :
    (dat1 V c).flushed 1 t = ((cfg1.win 1).blk t).view.read (Elt Ideal) (scaledT (V c main_v1)) := by
  show (cfg1.win 1).cut (grid1.coords t) ((dat1 V c).after 1 t) = _
  rw [after1_1]
  unfold out1_1
  rw [View.canon_unit_zero hz]
  simp only [View.ld_unit_zero (S := S16x24576) hz]
  rw [in_blk V c t]
  obtain ⟨-, -, e2, e3⟩ := idx_facts t
  funext y
  obtain ⟨e, q, rfl⟩ : ∃ (e : Fin 24576) (q : Fin 16), y = ix2 e q := ⟨y 0, y 1, eq_ix2 y⟩
  have hemb : ((cfg1.win 1).blk t).view.emb (ix2 e q) = ix2 e q := funext fun a => Fin.ext (by
    match a with
    | ⟨0, _⟩ => show win1_1.index t (0 : Fin 2) * 24576 + 1 * e.val = e.val; omega
    | ⟨1, _⟩ => show win1_1.index t (1 : Fin 2) * 16 + 1 * q.val = q.val; omega)
  show k1_pay1 (F := Ideal) (V c main_v1) (ix2 e q) = scaledT (V c main_v1) (((cfg1.win 1).blk t).view.emb (ix2 e q))
  rw [hemb]
  exact RescaleBody.pay_at (V c main_v1) e q

/-- The one write-back covers every index of the result array. -/
theorem cover (i : S24576x16.Idx) : ∃ t : Fin cfg1.N, (cfg1.win 1).flush t = true ∧ i ∈ ((cfg1.win 1).blk t).view.set := by
  have hi0 : (i 0).val < 24576 := (i 0).isLt
  have hi1 : (i 1).val < 16 := (i 1).isLt
  refine ⟨t1_0, flush1_1 t1_0, ?_⟩
  obtain ⟨-, -, e2, e3⟩ := idx_facts t1_0
  show i ∈ ((View.whole main_v2).slice (win1_1.rect t1_0)).set
  rw [View.set_slice_whole, Rect.mem_set_unit]
  intro a
  match a with
  | ⟨0, _⟩ => show win1_1.index t1_0 (0 : Fin 2) * 24576 ≤ (i 0).val ∧ (i 0).val < win1_1.index t1_0 (0 : Fin 2) * 24576 + 24576; omega
  | ⟨1, _⟩ => show win1_1.index t1_0 (1 : Fin 2) * 16 ≤ (i 1).val ∧ (i 1).val < win1_1.index t1_0 (1 : Fin 2) * 16 + 16; omega

/-- The result array after the region: the rescaled transpose of the array the region was entered with. -/
theorem final (c : Dev nD) : (dat1 V c).arrAt 1 cfg1.N = scaledT (V c main_v1) :=
  (dat1 V c).arrAt_eq_of_cover 1 (scaledT (V c main_v1)) (fun t _ => flushed_eq V c t) cover

end Cert.KernelIdeal.RescaleArray

end
-- ==== Proof.EdgeBody.lean ====
/-
  The edge kernel's stored value at an index.

  At one grid point the kernel holds all of `X` (`x0`, 8192 × 64), a 256-column block of each incidence matrix
  (`x1` of `Ro`, `x2` of `Ri`, 8192 × 256), all of `W` (`x3`) and the bias as a row (`x4`, 1 × 16).  It forms
  `bo = x1ᵀ·x0 + x1ᵀ·(x0 − x0)` and `bi` likewise from `x2` (a value split into a part and a remainder, each product
  contracting the 8192 nodes), then `relu (bo · W[0:64] + bi · W[64:128] + bias)`, and stores the transpose.  Every
  matrix product is taken into a zero accumulator, so at the extended reals it is the plain sum over the contracted
  axis; a slice of `W` reads `W` at a shifted row; the bias row is read at row 0 whatever the edge.  Entry `(q, r)` of
  the stored block is the formula below at edge `r` of the block and unit `q`.
-/
import proofs.«113099_j4964982194217_2_alg».proof.Proof.Gen.KernelIdeal.Skeleton
import proofs.«113099_j4964982194217_2_alg».proof.Proof.Spec
import Idealize.ShloMosaic.Lib.Pipeline.Value
import Idealize.ShloMosaic.Lib.ValueIdx
import Idealize.ShloMosaic.PureOps.Ideal.Laws

noncomputable section

namespace Cert.KernelIdeal.EdgeBody

open Idealize.ShloMosaic Idealize.ShloMosaic.ValueIdx Cert.KernelIdeal Cert.KernelIdeal.Gen Cert.EdgeSpec

/-- The product contracting the first axis of both operands: `[8192, 256]ᵀ · [8192, 64]`. -/
abbrev dA := dot_S8192x256_S8192x64_S256x64_0_0_1_1_n_n
/-- The plain product `[256, 64] · [64, 16]`. -/
abbrev dB := dot_S256x64_S64x16_S256x16_1_0_0_1_n_n

theorem lhsA_0 (i : S256x64.Idx) (k : dA.contr.Idx) : (dA.lhsIdx i k 0).val = (k ⟨0, by decide⟩).val :=
  dA.lhsIdx_val_of_single rfl i k
theorem lhsA_1 (i : S256x64.Idx) (k : dA.contr.Idx) : (dA.lhsIdx i k 1).val = (i 0).val := by
  unfold DotDims.lhsIdx
  rw [dif_neg (show ¬(1 : Fin S8192x256.rank) ∈ dA.lhsBatch by decide), dif_pos (show (1 : Fin S8192x256.rank) ∈ dA.lhsNonContracting by decide)]
  rfl
theorem rhsA_0 (i : S256x64.Idx) (k : dA.contr.Idx) : (dA.rhsIdx i k 0).val = (k ⟨0, by decide⟩).val :=
  dA.rhsIdx_val_of_single rfl i k
theorem rhsA_1 (i : S256x64.Idx) (k : dA.contr.Idx) : (dA.rhsIdx i k 1).val = (i 1).val := by
  unfold DotDims.rhsIdx
  rw [dif_neg (show ¬(1 : Fin S8192x64.rank) ∈ dA.rhsBatch by decide), dif_pos (show (1 : Fin S8192x64.rank) ∈ dA.rhsNonContracting by decide)]
  rfl

/-- Entry `(r, d)` of `lᵀ·x` into zero: the sum over the 8192 nodes. -/
theorem matA_at (l : FVec Ideal S8192x256 .bf16) (x : FVec Ideal S8192x64 .bf16) (r : Fin 256) (d : Fin 64) :
    matmul dA none l x (constant (F := Ideal) S256x64 .f32 0x00000000#32) (ix2 r d) = ∑ n : Fin 8192, l (ix2 n r) * x (ix2 n d) := by
  refine (Ideal.matmul_constant_zero_apply dA none l x (ix2 r d)).trans ?_
  rw [← Equiv.sum_comp (contrEquiv1 dA 8192 rfl rfl).symm]
  refine Finset.sum_congr rfl fun k _ => ?_
  have hk := contrEquiv1_symm_val dA 8192 rfl rfl k
  have el : dA.lhsIdx (ix2 r d) ((contrEquiv1 dA 8192 rfl rfl).symm k) = ix2 k r := funext fun a => Fin.ext (by
    match a with
    | ⟨0, _⟩ => exact (lhsA_0 _ _).trans hk
    | ⟨1, _⟩ => exact lhsA_1 _ _)
  have er : dA.rhsIdx (ix2 r d) ((contrEquiv1 dA 8192 rfl rfl).symm k) = ix2 k d := funext fun a => Fin.ext (by
    match a with
    | ⟨0, _⟩ => exact (rhsA_0 _ _).trans hk
    | ⟨1, _⟩ => exact rhsA_1 _ _)
  rw [el, er]

theorem lhsB_0 (i : S256x16.Idx) (k : dB.contr.Idx) : (dB.lhsIdx i k 0).val = (i 0).val := by
  unfold DotDims.lhsIdx
  rw [dif_neg (show ¬(0 : Fin S256x64.rank) ∈ dB.lhsBatch by decide), dif_pos (show (0 : Fin S256x64.rank) ∈ dB.lhsNonContracting by decide)]
  rfl
theorem lhsB_1 (i : S256x16.Idx) (k : dB.contr.Idx) : (dB.lhsIdx i k 1).val = (k ⟨0, by decide⟩).val :=
  dB.lhsIdx_val_of_single rfl i k
theorem rhsB_0 (i : S256x16.Idx) (k : dB.contr.Idx) : (dB.rhsIdx i k 0).val = (k ⟨0, by decide⟩).val :=
  dB.rhsIdx_val_of_single rfl i k
theorem rhsB_1 (i : S256x16.Idx) (k : dB.contr.Idx) : (dB.rhsIdx i k 1).val = (i 1).val := by
  unfold DotDims.rhsIdx
  rw [dif_neg (show ¬(1 : Fin S64x16.rank) ∈ dB.rhsBatch by decide), dif_pos (show (1 : Fin S64x16.rank) ∈ dB.rhsNonContracting by decide)]
  rfl

/-- Entry `(r, q)` of `a·w` into zero: the sum over the 64 features. -/
theorem matB_at (p : Option ContractPrecision) (a : FVec Ideal S256x64 .f32) (w : FVec Ideal S64x16 .f32) (r : Fin 256) (q : Fin 16) :
    matmul dB p a w (constant (F := Ideal) S256x16 .f32 0x00000000#32) (ix2 r q) = ∑ d : Fin 64, a (ix2 r d) * w (ix2 d q) := by
  refine (Ideal.matmul_constant_zero_apply dB p a w (ix2 r q)).trans ?_
  rw [← Equiv.sum_comp (contrEquiv1 dB 64 rfl rfl).symm]
  refine Finset.sum_congr rfl fun k _ => ?_
  have hk := contrEquiv1_symm_val dB 64 rfl rfl k
  have el : dB.lhsIdx (ix2 r q) ((contrEquiv1 dB 64 rfl rfl).symm k) = ix2 r k := funext fun a => Fin.ext (by
    match a with
    | ⟨0, _⟩ => exact lhsB_0 _ _
    | ⟨1, _⟩ => exact (lhsB_1 _ _).trans hk)
  have er : dB.rhsIdx (ix2 r q) ((contrEquiv1 dB 64 rfl rfl).symm k) = ix2 k q := funext fun a => Fin.ext (by
    match a with
    | ⟨0, _⟩ => exact (rhsB_0 _ _).trans hk
    | ⟨1, _⟩ => exact rhsB_1 _ _)
  rw [el, er]

/-- The first 64 rows of `W`. -/
theorem slice_top (w : FVec Ideal S128x16 .f32) (d : Fin 64) (q : Fin 16) :
    extractStridedSlice S64x16 ![0, 0] w slices_S128x16_o0_0_S64x16 (ix2 d q) = w (ix2 (top d) q) :=
  extractStridedSlice_apply ![0, 0] w slices_S128x16_o0_0_S64x16 (ix2 d q) (ix2 (top d) q) (fun a => match a with
    | ⟨0, _⟩ => by show d.val = 0 + d.val; omega
    | ⟨1, _⟩ => by show q.val = 0 + q.val; omega)

/-- The last 64 rows of `W`. -/
theorem slice_bot (w : FVec Ideal S128x16 .f32) (d : Fin 64) (q : Fin 16) :
    extractStridedSlice S64x16 ![64, 0] w slices_S128x16_o64_0_S64x16 (ix2 d q) = w (ix2 (bot d) q) :=
  extractStridedSlice_apply ![64, 0] w slices_S128x16_o64_0_S64x16 (ix2 d q) (ix2 (bot d) q) (fun a => match a with
    | ⟨0, _⟩ => by show 64 + d.val = 64 + d.val; rfl
    | ⟨1, _⟩ => by show q.val = 0 + q.val; omega)

/-- The bias row spread down the 256 edges of the block. -/
theorem bias_at (b : FVec Ideal S1x16 .f32) (r : Fin 256) (q : Fin 16) :
    broadcastTo S256x16 (shapeCast S1x16 b shapeCasts_S1x16_S1x16) broadcasts_S1x16_S256x16 (ix2 r q) = b (ix2 0 q) := by
  rw [shapeCast_self b shapeCasts_S1x16_S1x16]
  exact broadcastTo_apply b broadcasts_S1x16_S256x16 (ix2 r q) (ix2 0 q) (fun a => match a with
    | ⟨0, _⟩ => by show 0 = if (1 : Nat) = 1 then 0 else _; rw [if_pos rfl]
    | ⟨1, _⟩ => by show q.val = if (16 : Nat) = 1 then 0 else q.val; rw [if_neg (by decide)])

/-- Entry `(q, r)` of the stored block. -/
theorem pay_at (x0 : Vec Ideal S8192x64 .f32) (x1 x2 : Vec Ideal S8192x256 .f32) (x3 : Vec Ideal S128x16 .f32)
    (x4 : Vec Ideal S1x16 .f32) (q : Fin 16) (r : Fin 256) :
    k0_pay1 (F := Ideal) x0 x1 x2 x3 x4 (ix2 q r)
      = max (((∑ d : Fin 64, ((∑ n : Fin 8192, x1 (ix2 n r) * x0 (ix2 n d))
                  + ∑ n : Fin 8192, x1 (ix2 n r) * (x0 (ix2 n d) - x0 (ix2 n d))) * x3 (ix2 (top d) q))
              + ∑ d : Fin 64, ((∑ n : Fin 8192, x2 (ix2 n r) * x0 (ix2 n d))
                  + ∑ n : Fin 8192, x2 (ix2 n r) * (x0 (ix2 n d) - x0 (ix2 n d))) * x3 (ix2 (bot d) q))
            + x4 (ix2 0 q)) 0 := by
  unfold k0_pay1
  dsimp only
  refine (transpose_apply [1, 0] _ transposes_S256x16_p1_0_S16x256 (ix2 q r) (ix2 r q)
    (fun b => match b with | ⟨0, _⟩ => rfl | ⟨1, _⟩ => rfl)).trans ?_
  simp only [maximumf_apply, addf_apply, subf_apply, truncf_apply, broadcast_apply, matB_at, matA_at, slice_top, slice_bot, bias_at]
  show max _ (Ideal.ofBits .f32 0x00000000#32) = max _ 0
  rw [Ideal.ofBits_zero_f32]

end Cert.KernelIdeal.EdgeBody

end
-- ==== Proof.EdgeArray.lean ====
/-
  The edge region's output array after the run.

  The region has 96 grid points.  At point `t` the kernel sees all of `X`, `W` and the bias row (their windows stay at
  block (0, 0)) and columns `256·t … 256·t + 255` of each incidence matrix, and writes columns `256·t … 256·t + 255` of
  the transposed activation array (16 × 24576).  A block's coordinate in its array is always block index × block size +
  the coordinate inside the block, so column `r` of the blocks at point `t` is edge `256·t + r` (`edgeOf`).  With the
  body's stored value at an index (EdgeBody) every point writes back its block of ONE whole-array function, `hidT`:
  entry `(q, e)` is the hidden activation of edge `e`, unit `q`, in the arrangement that keeps the remainder terms.
  The 96 blocks tile the 24576 columns (edge `e` lies in the block of point `e / 256`), so the array ends holding
  `hidT`.  Stated at any entry contents `V`.
-/
import proofs.«113099_j4964982194217_2_alg».proof.Proof.Gen.KernelIdeal.Frame
import proofs.«113099_j4964982194217_2_alg».proof.Proof.EdgeBody
import Idealize.ShloMosaic.Lib.Pipeline.Value

set_option maxRecDepth 16384

noncomputable section

namespace Cert.KernelIdeal.EdgeArray

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.EdgeSpec

variable (V : (c : Dev nD) → (b : Ref sig .tc) → Buf (Elt Ideal) ((c : Thread nD τ).loc b))

theorem hz : (![0, 0] : Fin 2 → Nat) = fun _ => 0 := funext fun a => by fin_cases a <;> rfl

/-- Column `r` of the blocks at point `t` is this edge. -/
def edgeOf (t : Fin cfg0.N) (r : Fin 256) : Fin 24576 :=
  ⟨t.val * 256 + r.val, by have h : t.val < 96 := lt_of_lt_of_eq t.isLt N_0; have := r.isLt; omega⟩

/-- The transposed hidden activations, remainder terms kept, from the arrays and the bias laid out as a row. -/
abbrev hidT (X : S8192x64.Idx → EReal) (Ri Ro : S8192x24576.Idx → EReal) (W : S128x16.Idx → EReal) (brow : S1x16.Idx → EReal) :
    S16x24576.Idx → EReal :=
  fun j => hidSplit X Ri Ro W (fun i => brow (ix2 0 (i 0))) (j 1) (j 0)

/-- The printed index maps over the grid: `X`, `W` and the bias stay at block (0, 0); the incidence blocks and the
    output block move along the columns with the point. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- What point `t` writes back is block `t` of `hidT` of the arrays as the region finds them. -/
theorem flushed_eq (c : Dev nD) (t : Fin cfg0.N) :
    (dat0 V c).flushed 5 t = ((cfg0.win 5).blk t).view.read (Elt Ideal)
      (hidT (V c main_arg0) (V c main_arg1) (V c main_arg2) (V c main_arg3) (V c main_v0)) := by
  show (cfg0.win 5).cut (grid0.coords t) ((dat0 V c).after 5 t) = _
  rw [after0_5]
  unfold out0_5
  rw [View.canon_unit_zero hz]
  simp only [View.ld_unit_zero (S := S8192x64) hz, View.ld_unit_zero (S := S8192x256) hz, View.ld_unit_zero (S := S128x16) hz,
    View.ld_unit_zero (S := S1x16) hz]
  obtain ⟨a00, a01, a10, a11, a20, a21, a30, a31, a40, a41, a50, a51⟩ := idx_facts t
  funext y
  obtain ⟨q, r, rfl⟩ : ∃ (q : Fin 16) (r : Fin 256), y = ix2 q r := ⟨y 0, y 1, eq_ix2 y⟩
  have b0 : ∀ (n : Fin 8192) (d : Fin 64), iblk0 V c 0 t (ix2 n d) = V c main_arg0 (ix2 n d) := fun n d => by
    show V c main_arg0 (((cfg0.win 0).blk t).view.emb (ix2 n d)) = V c main_arg0 (ix2 n d)
    refine congrArg (V c main_arg0) (funext fun a => Fin.ext ?_)
    match a with
    | ⟨0, _⟩ => show win0_0.index t (0 : Fin 2) * 8192 + 1 * n.val = n.val; omega
    | ⟨1, _⟩ => show win0_0.index t (1 : Fin 2) * 64 + 1 * d.val = d.val; omega
  have b1 : ∀ n : Fin 8192, iblk0 V c 1 t (ix2 n r) = V c main_arg2 (ix2 n (edgeOf t r)) := fun n => by
    show V c main_arg2 (((cfg0.win 1).blk t).view.emb (ix2 n r)) = V c main_arg2 (ix2 n (edgeOf t r))
    refine congrArg (V c main_arg2) (funext fun a => Fin.ext ?_)
    match a with
    | ⟨0, _⟩ => show win0_1.index t (0 : Fin 2) * 8192 + 1 * n.val = n.val; omega
    | ⟨1, _⟩ => show win0_1.index t (1 : Fin 2) * 256 + 1 * r.val = t.val * 256 + r.val; omega
  have b2 : ∀ n : Fin 8192, iblk0 V c 2 t (ix2 n r) = V c main_arg1 (ix2 n (edgeOf t r)) := fun n => by
    show V c main_arg1 (((cfg0.win 2).blk t).view.emb (ix2 n r)) = V c main_arg1 (ix2 n (edgeOf t r))
    refine congrArg (V c main_arg1) (funext fun a => Fin.ext ?_)
    match a with
    | ⟨0, _⟩ => show win0_2.index t (0 : Fin 2) * 8192 + 1 * n.val = n.val; omega
    | ⟨1, _⟩ => show win0_2.index t (1 : Fin 2) * 256 + 1 * r.val = t.val * 256 + r.val; omega
  have b3 : ∀ (k : Fin 128) (u : Fin 16), iblk0 V c 3 t (ix2 k u) = V c main_arg3 (ix2 k u) := fun k u => by
    show V c main_arg3 (((cfg0.win 3).blk t).view.emb (ix2 k u)) = V c main_arg3 (ix2 k u)
    refine congrArg (V c main_arg3) (funext fun a => Fin.ext ?_)
    match a with
    | ⟨0, _⟩ => show win0_3.index t (0 : Fin 2) * 128 + 1 * k.val = k.val; omega
    | ⟨1, _⟩ => show win0_3.index t (1 : Fin 2) * 16 + 1 * u.val = u.val; omega
  have b4 : ∀ (z : Fin 1) (u : Fin 16), iblk0 V c 4 t (ix2 z u) = V c main_v0 (ix2 z u) := fun z u => by
    show V c main_v0 (((cfg0.win 4).blk t).view.emb (ix2 z u)) = V c main_v0 (ix2 z u)
    refine congrArg (V c main_v0) (funext fun a => Fin.ext ?_)
    match a with
    | ⟨0, _⟩ => show win0_4.index t (0 : Fin 2) * 1 + 1 * z.val = z.val; omega
    | ⟨1, _⟩ => show win0_4.index t (1 : Fin 2) * 16 + 1 * u.val = u.val; omega
  have hemb : ((cfg0.win 5).blk t).view.emb (ix2 q r) = ix2 q (edgeOf t r) := funext fun a => Fin.ext (by
    match a with
    | ⟨0, _⟩ => show win0_5.index t (0 : Fin 2) * 16 + 1 * q.val = q.val; omega
    | ⟨1, _⟩ => show win0_5.index t (1 : Fin 2) * 256 + 1 * r.val = t.val * 256 + r.val; omega)
  show k0_pay1 (F := Ideal) (iblk0 V c 0 t) (iblk0 V c 1 t) (iblk0 V c 2 t) (iblk0 V c 3 t) (iblk0 V c 4 t) (ix2 q r)
    = hidT (V c main_arg0) (V c main_arg1) (V c main_arg2) (V c main_arg3) (V c main_v0) (((cfg0.win 5).blk t).view.emb (ix2 q r))
  rw [hemb]
  refine (EdgeBody.pay_at (iblk0 V c 0 t) (iblk0 V c 1 t) (iblk0 V c 2 t) (iblk0 V c 3 t) (iblk0 V c 4 t) q r).trans ?_
  simp only [b0, b1, b2, b3, b4]
  rfl

/-- Every column lies in the block of the point its edge number divided by 256 names. -/
theorem cover (i : S16x24576.Idx) : ∃ t : Fin cfg0.N, (cfg0.win 5).flush t = true ∧ i ∈ ((cfg0.win 5).blk t).view.set := by
  have hi0 : (i 0).val < 16 := (i 0).isLt
  have hi1 : (i 1).val < 24576 := (i 1).isLt
  have hN : (i 1).val / 256 < cfg0.N := lt_of_lt_of_eq (by omega : (i 1).val / 256 < 96) N_0.symm
  refine ⟨⟨(i 1).val / 256, hN⟩, flush0_5 _, ?_⟩
  obtain ⟨-, -, -, -, -, -, -, -, -, -, a50, a51⟩ := idx_facts ⟨(i 1).val / 256, hN⟩
  show i ∈ ((View.whole main_v1).slice (win0_5.rect ⟨(i 1).val / 256, hN⟩)).set
  rw [View.set_slice_whole, Rect.mem_set_unit]
  intro a
  match a with
  | ⟨0, _⟩ =>
    show win0_5.index ⟨(i 1).val / 256, hN⟩ (0 : Fin 2) * 16 ≤ (i 0).val ∧ (i 0).val < win0_5.index ⟨(i 1).val / 256, hN⟩ (0 : Fin 2) * 16 + 16
    omega
  | ⟨1, _⟩ =>
    show win0_5.index ⟨(i 1).val / 256, hN⟩ (1 : Fin 2) * 256 ≤ (i 1).val ∧ (i 1).val < win0_5.index ⟨(i 1).val / 256, hN⟩ (1 : Fin 2) * 256 + 256
    have ht : (⟨(i 1).val / 256, hN⟩ : Fin cfg0.N).val = (i 1).val / 256 := rfl
    omega

/-- The transposed activation array after the region. -/
theorem final (c : Dev nD) : (dat0 V c).arrAt 5 cfg0.N
    = hidT (V c main_arg0) (V c main_arg1) (V c main_arg2) (V c main_arg3) (V c main_v0) :=
  (dat0 V c).arrAt_eq_of_cover 5 _ (fun t _ => flushed_eq V c t) cover

end Cert.KernelIdeal.EdgeArray

end
-- ==== Proof.KernelValue.lean ====
/-
  The idealized kernel's result array is the specification's `out`, for real node features.

  After the run the result array is the second region's output array (KernelRun), which is the rescaled transpose of that
  region's input array (RescaleArray), which is the first region's output array, which holds the transposed hidden
  activations with the remainder terms kept (EdgeArray), of the arrays as the first region finds them: the four array
  arguments untouched by the host reshape, and the bias recast from 16 entries to a 1 × 16 row (entry `(0, q)` of the row is
  entry `q` of the bias).  For real `X` the remainder terms vanish (`hidSplit_eq`), and rescaling a transposed array and
  transposing back is rescaling the array (`rescale_swap`).
-/
import proofs.«113099_j4964982194217_2_alg».proof.Proof.KernelRun
import proofs.«113099_j4964982194217_2_alg».proof.Proof.RescaleArray
import proofs.«113099_j4964982194217_2_alg».proof.Proof.EdgeArray
import Idealize.ShloMosaic.Lib.StableHlo.Run

set_option maxRecDepth 16384

noncomputable section

namespace Cert.KernelIdeal.ResultValue

open Idealize.ShloMosaic Idealize.ShloMosaic.TcCoe Idealize.ShloMosaic.ValueIdx Idealize.SL.Sem Idealize.ShloMosaic.StableHlo
open Cert.KernelIdeal Cert.KernelIdeal.Gen Cert.EdgeSpec

variable (m : (ℓ : Loc nD τ sig) → Buf (Elt Ideal) ℓ) (ρ : Dev nD → PrngReg)

/-- Every entry of a node-feature array is a real number. -/
abbrev RealArr (X : S8192x64.Idx → EReal) : Prop := ∀ i, X i ≠ ⊤ ∧ X i ≠ ⊥

/-! ## The arrays as the first region finds them -/

theorem entry_arg0 (c : Dev nD) : V1 m ρ c main_arg0 = m ((c : Thread nD τ).loc main_arg0) := by
  show StableHlo.after hostOps0 (W0 m ρ c) (Proc.devRef .tc main_arg0) = _
  after_results <;> rfl
theorem entry_arg1 (c : Dev nD) : V1 m ρ c main_arg1 = m ((c : Thread nD τ).loc main_arg1) := by
  show StableHlo.after hostOps0 (W0 m ρ c) (Proc.devRef .tc main_arg1) = _
  after_results <;> rfl
theorem entry_arg2 (c : Dev nD) : V1 m ρ c main_arg2 = m ((c : Thread nD τ).loc main_arg2) := by
  show StableHlo.after hostOps0 (W0 m ρ c) (Proc.devRef .tc main_arg2) = _
  after_results <;> rfl
theorem entry_arg3 (c : Dev nD) : V1 m ρ c main_arg3 = m ((c : Thread nD τ).loc main_arg3) := by
  show StableHlo.after hostOps0 (W0 m ρ c) (Proc.devRef .tc main_arg3) = _
  after_results <;> rfl
/-- The bias as a 1 × 16 row. -/
theorem entry_bias (c : Dev nD) :
    V1 m ρ c main_v0 = shapeCast S1x16 (m ((c : Thread nD τ).loc main_arg4)) shapeCasts_S16_S1x16 := by
  show StableHlo.after hostOps0 (W0 m ρ c) (Proc.devRef .tc main_v0) = _
  after_results <;> rfl

/-- Entry `(0, q)` of the row is entry `q` of the bias. -/
theorem bias_row (b : S16.Idx → EReal) (q : Fin 16) : shapeCast S1x16 b shapeCasts_S16_S1x16 (ix2 0 q) = b (ix1 q) := by
  refine (shapeCast_addUnit_apply ![16] b shapeCasts_S16_S1x16 (ix2 0 q)).trans ?_
  exact congrArg b (funext fun a => match a with | ⟨0, _⟩ => rfl)

/-! ## The result -/

/-- The first region's output array, for real `X`: the transposed hidden activations. -/
theorem hidden (hX : ∀ c : Dev nD, RealArr (m ((c : Thread nD τ).loc main_arg0))) (c : Dev nD) :
    V2 m ρ c main_v1 = fun j : S16x24576.Idx =>
      hid (m ((c : Thread nD τ).loc main_arg0)) (m ((c : Thread nD τ).loc main_arg1)) (m ((c : Thread nD τ).loc main_arg2))
        (m ((c : Thread nD τ).loc main_arg3)) (m ((c : Thread nD τ).loc main_arg4)) (j 1) (j 0) := by
  refine (Result.V2_hidden m ρ c).trans ?_
  refine (EdgeArray.final (V1 m ρ) c).trans ?_
  rw [entry_arg0, entry_arg1, entry_arg2, entry_arg3, entry_bias]
  funext j
  obtain ⟨q, e, rfl⟩ : ∃ (q : Fin 16) (e : Fin 24576), j = ix2 q e := ⟨j 0, j 1, eq_ix2 j⟩
  show hidSplit _ _ _ _ (fun i => shapeCast S1x16 (m ((c : Thread nD τ).loc main_arg4)) shapeCasts_S16_S1x16 (ix2 0 (i 0))) e q = hid _ _ _ _ _ e q
  rw [hidSplit_eq _ _ _ _ _ (hX c)]
  unfold hid
  show max (_ + shapeCast S1x16 (m ((c : Thread nD τ).loc main_arg4)) shapeCasts_S16_S1x16 (ix2 0 q)) 0 = _
  rw [bias_row]

/-- The result array after the run. -/
theorem result_eq (hX : ∀ c : Dev nD, RealArr (m ((c : Thread nD τ).loc main_arg0))) (c : Dev nD) :
    W3 m ρ c (Proc.devRef .tc main_v2)
      = out (m ((c : Thread nD τ).loc main_arg0)) (m ((c : Thread nD τ).loc main_arg1)) (m ((c : Thread nD τ).loc main_arg2))
          (m ((c : Thread nD τ).loc main_arg3)) (m ((c : Thread nD τ).loc main_arg4)) := by
  refine (Result.W3_result m ρ c).trans ?_
  refine (RescaleArray.final (V2 m ρ) c).trans ?_
  rw [hidden m ρ hX c]
  funext i
  obtain ⟨e, q, rfl⟩ : ∃ (e : Fin 24576) (q : Fin 16), i = ix2 e q := ⟨i 0, i 1, eq_ix2 i⟩
  exact rescale_swap (fun i => hid (m ((c : Thread nD τ).loc main_arg0)) (m ((c : Thread nD τ).loc main_arg1))
    (m ((c : Thread nD τ).loc main_arg2)) (m ((c : Thread nD τ).loc main_arg3)) (m ((c : Thread nD τ).loc main_arg4)) (i 0) (i 1)) e q

end Cert.KernelIdeal.ResultValue

end
-- ==== Proof.RefValue.lean ====
/-
  The reference's result is the specification's `out`.

  The reference computes `Roᵀ·X` and `Riᵀ·X` (a transpose, then a product contracting the 8192 nodes), joins them along the
  feature axis, multiplies by `W`, adds the bias spread over the edges, clamps at zero, takes the minimum and the maximum
  of all entries and rescales.  Read at an index, operation by operation: a transposed incidence matrix at `(e, n)` is the
  matrix at `(n, e)`, so each product's entry `(e, d)` is the gathered feature `gath`; the joined array at `(e, k)` is the
  first product for `k < 64` and the second at `k − 64` otherwise (`cat`); the hidden activation is `hidCat`, hence `hid`;
  a reduction over both axes folds `min` (`max`) from +∞ (−∞) over every index, the infimum (supremum).
-/
import proofs.«113099_j4964982194217_2_alg».proof.Proof.RefRead
import proofs.«113099_j4964982194217_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.ReadP Cert.EdgeSpec

variable (x0 : FVec Ideal S8192x64 .f32) (x1 x2 : FVec Ideal S8192x24576 .f32) (x3 : FVec Ideal S128x16 .f32) (x4 : FVec Ideal S16 .f32)

instance : Subsingleton S_.Idx := ⟨fun a b => funext fun d => d.elim0⟩

/-- Entry `(e, d)` of `Roᵀ·X`. -/
theorem gath_ro (e : Fin 24576) (d : Fin 64) : val_main_v1 (F := Ideal) x0 x2 (ix2 e d) = gath x0 x2 e d := by
  rw [val_main_v1_apply]
  unfold gath
  refine Finset.sum_congr rfl fun n _ => ?_
  rw [val_main_v0_apply]
  have e1 : idx_main_v0 (lidx_main_v1 (ix2 e d) n) = ix2 n e := funext fun a => Fin.ext (by
    match a with
    | ⟨0, _⟩ => rfl
    | ⟨1, _⟩ => rfl)
  have e2 : ridx_main_v1 (ix2 e d) n = ix2 n d := funext fun a => Fin.ext (by
    match a with
    | ⟨0, _⟩ => rfl
    | ⟨1, _⟩ => rfl)
  rw [e1, e2]

/-- Entry `(e, d)` of `Riᵀ·X`. -/
theorem gath_ri (e : Fin 24576) (d : Fin 64) : val_main_v3 (F := Ideal) x0 x1 (ix2 e d) = gath x0 x1 e d := by
  rw [val_main_v3_apply]
  unfold gath
  refine Finset.sum_congr rfl fun n _ => ?_
  rw [val_main_v2_apply]
  have e1 : idx_main_v2 (lidx_main_v3 (ix2 e d) n) = ix2 n e := funext fun a => Fin.ext (by
    match a with
    | ⟨0, _⟩ => rfl
    | ⟨1, _⟩ => rfl)
  have e2 : ridx_main_v3 (ix2 e d) n = ix2 n d := funext fun a => Fin.ext (by
    match a with
    | ⟨0, _⟩ => rfl
    | ⟨1, _⟩ => rfl)
  rw [e1, e2]

/-- The joined features at `(e, k)`. -/
theorem cat_at (e : Fin 24576) (k : Fin 128) : val_main_v4 (F := Ideal) x0 x1 x2 (ix2 e k) = cat x0 x1 x2 e k := by
  unfold val_main_v4 cat
  by_cases h : k.val < 64
  · rw [dif_pos h]
    refine (concatenate_pair_apply_left (1 : Fin S24576x128.rank) _ _ concatenates_S24576x64_S24576x64_S24576x128_d1 (ix2 e k) rfl
      (ix2 e (⟨k.val, h⟩ : Fin 64) : S24576x64.Idx) (fun b => match b with | ⟨0, _⟩ => rfl | ⟨1, _⟩ => rfl)).trans ?_
    exact gath_ro x0 x2 e ⟨k.val, h⟩
  · rw [dif_neg h]
    have hk : k.val - 64 < 64 := by have := k.isLt; omega
    refine (concatenate_pair_apply_right (1 : Fin S24576x128.rank) _ _ concatenates_S24576x64_S24576x64_S24576x128_d1 (ix2 e k) rfl rfl
      (ix2 e (⟨k.val - 64, hk⟩ : Fin 64) : S24576x64.Idx) (fun b hb => match b with
        | ⟨0, _⟩ => rfl
        | ⟨1, _⟩ => absurd rfl hb)
      (by show k.val - 64 + 64 = k.val; omega)).trans ?_
    exact gath_ri x0 x1 e ⟨k.val - 64, hk⟩

/-- The product with `W` at `(e, q)`. -/
theorem prod_at (e : Fin 24576) (q : Fin 16) :
    val_main_v5 (F := Ideal) x0 x1 x2 x3 (ix2 e q) = ∑ k : Fin 128, cat x0 x1 x2 e k * x3 (ix2 k q) := by
  rw [val_main_v5_apply]
  refine Finset.sum_congr rfl fun k _ => ?_
  have e1 : lidx_main_v5 (ix2 e q) k = ix2 e k := funext fun a => Fin.ext (by
    match a with
    | ⟨0, _⟩ => rfl
    | ⟨1, _⟩ => rfl)
  have e2 : ridx_main_v5 (ix2 e q) k = ix2 k q := funext fun a => Fin.ext (by
    match a with
    | ⟨0, _⟩ => rfl
    | ⟨1, _⟩ => rfl)
  rw [e1, e2, cat_at]

/-- The bias spread over the edges. -/
theorem bias_at (e : Fin 24576) (q : Fin 16) : val_main_v7 (F := Ideal) x4 (ix2 e q) = x4 (ix1 q) := by
  rw [val_main_v7_apply, val_main_v6_apply]
  exact congrArg x4 (funext fun a => Fin.ext (by
    match a with
    | ⟨0, _⟩ => rfl))

/-- The hidden activation at `(e, q)`. -/
theorem hidden_at (e : Fin 24576) (q : Fin 16) :
    val_main_v9 (F := Ideal) x0 x1 x2 x3 x4 (ix2 e q) = hid x0 x1 x2 x3 x4 e q := by
  rw [val_main_v9_apply, val_main_v8_apply, prod_at, bias_at, val_main_call0_v0_apply, val_main_call0_cst_apply, ← hidCat_eq]
  unfold hidCat
  show max _ (Ideal.ofBits .f32 0x00000000#32) = max _ 0
  rw [Ideal.ofBits_zero_f32]
  rfl

theorem hidden_eq : val_main_v9 (F := Ideal) x0 x1 x2 x3 x4 = fun i => hid x0 x1 x2 x3 x4 (i 0) (i 1) := by
  funext i
  obtain ⟨e, q, rfl⟩ : ∃ (e : Fin 24576) (q : Fin 16), i = ix2 e q := ⟨i 0, i 1, eq_ix2 i⟩
  exact hidden_at x0 x1 x2 x3 x4 e q

/-- The minimum of all hidden activations. -/
theorem min_eq (j : S_.Idx) : val_main_v10 (F := Ideal) x0 x1 x2 x3 x4 j = ⨅ i, val_main_v9 (F := Ideal) x0 x1 x2 x3 x4 i := by
  unfold val_main_v10
  refine (Host.reduce_eq_fold (FloatOps.minimumf (F := Ideal) (φ := .f32)) _ _ reducesTo_S24576x16_S_d0_1 h_S_ j).trans ?_
  have hf : (Finset.univ.filter fun i : S24576x16.Idx => reducesTo_S24576x16_S_d0_1.drop i = j) = Finset.univ :=
    Finset.filter_true_of_mem (fun i _ => Subsingleton.elim _ _)
  rw [hf]
  show Finset.univ.fold (fun x y : EReal => min x y) (Ideal.ofBits .f32 0x7F800000#32) _ = _
  rw [top_word, fold_min_univ]

/-- The maximum of all hidden activations. -/
theorem max_eq (j : S_.Idx) : val_main_v11 (F := Ideal) x0 x1 x2 x3 x4 j = ⨆ i, val_main_v9 (F := Ideal) x0 x1 x2 x3 x4 i := by
  unfold val_main_v11
  refine (Host.reduce_eq_fold (FloatOps.maximumf (F := Ideal) (φ := .f32)) _ _ reducesTo_S24576x16_S_d0_1 h_S_ j).trans ?_
  have hf : (Finset.univ.filter fun i : S24576x16.Idx => reducesTo_S24576x16_S_d0_1.drop i = j) = Finset.univ :=
    Finset.filter_true_of_mem (fun i _ => Subsingleton.elim _ _)
  rw [hf]
  show Finset.univ.fold (fun x y : EReal => max x y) (Ideal.ofBits .f32 0xFF800000#32) _ = _
  rw [bot_word, fold_max_univ]

/-- The reference's result array is the specification's. -/
theorem result_eq : val_main_v18 (F := Ideal) x0 x1 x2 x3 x4 = out x0 x1 x2 x3 x4 := by
  funext i
  rw [val_main_v18_apply, val_main_v16_apply, val_main_v13_apply, val_main_v12_apply, val_main_v15_apply, val_main_v14_apply,
    val_main_v17_apply, val_main_cst_1_apply, min_eq, max_eq, hidden_eq]
  rfl

end Cert.ReferenceIdeal.RefValue

end
-- ==== Proof.lean ====
/-
  The edge network kernel against its reference: the five claims.

  The kernel runs two regions.  The first, at each of 96 grid points, gathers node features along 256 edges through the two
  incidence matrices (each gathered feature computed as `Rᵀ·X + Rᵀ·(X − X)`: a value and its remainder after a change of
  float format, which at the extended reals is the identity, so the remainder is `X − X`), multiplies by the two halves of
  `W`, adds the bias, clamps at zero and writes the transposed block.  The second takes the global minimum and maximum of
  the transposed activations and writes back the rescaled transpose.  The reference does the same with one product over
  the concatenated features, edge-major throughout.

  Both end at `out` (Proof/Spec.lean): the kernel because, for real node features, `X − X = 0` (the one use of the
  precondition), a sum over 128 features splits into the two halves, and an infimum or supremum over all entries does not
  depend on the layout; the reference by reading its operations one at a time.  The three frames are the generated ones
  (the reference's is its run with the result dropped); `preserves` is the one rewrite of the idealization, a narrowing
  to bf16 and back, which is the identity at the extended reals.
-/
import proofs.«113099_j4964982194217_2_alg».proof.Defs
import proofs.«113099_j4964982194217_2_alg».proof.Proof.Gen.Kernel
import proofs.«113099_j4964982194217_2_alg».proof.Proof.Gen.Kernel.Skeleton
import proofs.«113099_j4964982194217_2_alg».proof.Proof.Gen.Kernel.Launch
import proofs.«113099_j4964982194217_2_alg».proof.Proof.Gen.Kernel.Points
import proofs.«113099_j4964982194217_2_alg».proof.Proof.Gen.Kernel.Frame
import proofs.«113099_j4964982194217_2_alg».proof.Proof.Gen.KernelIdeal
import proofs.«113099_j4964982194217_2_alg».proof.Proof.Gen.KernelIdeal.Skeleton
import proofs.«113099_j4964982194217_2_alg».proof.Proof.Gen.KernelIdeal.Launch
import proofs.«113099_j4964982194217_2_alg».proof.Proof.Gen.KernelIdeal.Points
import proofs.«113099_j4964982194217_2_alg».proof.Proof.Gen.KernelIdeal.Frame
import proofs.«113099_j4964982194217_2_alg».proof.Proof.Gen.ReferenceIdeal
import proofs.«113099_j4964982194217_2_alg».proof.Proof.Gen.Pre_finite_inputs
import proofs.«113099_j4964982194217_2_alg».proof.Proof.Finite
import proofs.«113099_j4964982194217_2_alg».proof.Proof.KernelValue
import proofs.«113099_j4964982194217_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Narrowing to bf16 and widening back is the identity at the extended reals. -/
theorem preserves : Cert.preserves_Kernel_KernelIdeal := IdealRules.truncf_extf.statement _ .f32 .bf16

/-- From memories agreeing on the arguments, with real node features, both programs end at `out` of the arguments. -/
theorem algebraic : Cert.algebraic_KernelIdeal_ReferenceIdeal := by
  intro m ρ m' ρ' hpre hagree
  have hX : ∀ c : Dev Cert.KernelIdeal.nD, Cert.KernelIdeal.ResultValue.RealArr
      (m ((c.tc : Thread Cert.KernelIdeal.nD Cert.KernelIdeal.τ).loc Cert.KernelIdeal.main_arg0)) :=
    fun c i => Cert.FiniteX.X_real _ _ _ _ _ (hpre c) i
  refine ⟨fun c => Cert.EdgeSpec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.ResultValue.result_eq m ρ hX c), (h c).2⟩)
      (Cert.KernelIdeal.Result.run_W3 (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v18_eq, Cert.ReferenceIdeal.RefValue.result_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
